-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S2048x1024 : Shape := ⟨2, ![2048, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x2048x1024 .f32) (main_arg1 : FVec F S2048x1024 .f32) (main_arg2 : FVec F S1024 .f32) (main_arg3 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x2048x1024 : Shape := ⟨3, ![4, 2048, 1024]⟩
abbrev S2048x1024 : Shape := ⟨2, ![2048, 1024]⟩
abbrev S1024 : Shape := ⟨1, ![1024]⟩
abbrev S1x1024 : Shape := ⟨2, ![1, 1024]⟩
abbrev S4x512x1024 : Shape := ⟨3, ![4, 512, 1024]⟩
abbrev S512x1024 : Shape := ⟨2, ![512, 1024]⟩
abbrev S1x512x1024 : Shape := ⟨3, ![1, 512, 1024]⟩
abbrev S4x512 : Shape := ⟨2, ![4, 512]⟩
abbrev S4x512x1 : Shape := ⟨3, ![4, 512, 1]⟩
abbrev S1x1x1024 : Shape := ⟨3, ![1, 1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4x2048x1024, .f32⟩
  | .local _ .vmem, ⟨0, _⟩ => ⟨S4x512x1024, .f32⟩
  | .local _ .vmem, ⟨1, _⟩ => ⟨S4x512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S4x512x1024, .f32⟩
  | .local _ .vmem, ⟨7, _⟩ => ⟨S4x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024_S1x1024 : S1024.ShapeCasts S1x1024
  inb_S4x512x1024_S4x512x1024_0_0_0 : ∀ a, (![0, 0, 0] : Fin 3 → Nat) a + S4x512x1024.size a ≤ S4x512x1024.size a
  h_S4x512x1024 : 0 < S4x512x1024.numel
  inb_S512x1024_S512x1024_0_0 : ∀ a, (![0, 0] : Fin 2 → Nat) a + S512x1024.size a ≤ S512x1024.size a
  h_S512x1024 : 0 < S512x1024.numel
  shapeCasts_S512x1024_S1x512x1024 : S512x1024.ShapeCasts S1x512x1024
  broadcasts_S1x512x1024_S4x512x1024 : S1x512x1024.Broadcasts S4x512x1024
  reduces_S4x512x1024_S4x512 : S4x512x1024.Reduces [2] S4x512
  shapeCasts_S4x512_S4x512x1 : S4x512.ShapeCasts S4x512x1
  broadcasts_S4x512x1_S4x512x1024 : S4x512x1.Broadcasts S4x512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  broadcasts_S1x1x1024_S4x512x1024 : S1x1x1024.Broadcasts S4x512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S4x2048x1024.size a
  hwx0_0 : ∀ i : grid0.Coords, EltTy.bits .f32 = 32 ∨ (Rect.block (s := S4x2048x1024) S4x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x1024.size a
  hwx0_1 : ∀ i : grid0.Coords, EltTy.bits .f32 = 32 ∨ (Rect.block (s := S2048x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x1024.size a ≤ S4x2048x1024.size a
  hwx0_4 : ∀ i : grid0.Coords, EltTy.bits .f32 = 32 ∨ (Rect.block (s := S4x2048x1024) S4x512x1024.size (cc0_transform_4 i) (hinb0_4 i)).WholeWords (EltTy.packing .f32)

variable [Facts₀]

abbrev win0_0 : Pipeline.Window sig grid0 :=
  Pipeline.Window.ofSpec (Memref.whole main_arg0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S2048x1024 : Shape := ⟨2, ![2048, 1024]⟩
abbrev S1024 : Shape := ⟨1, ![1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1x2048x1024 : Shape := ⟨3, ![1, 2048, 1024]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S1, .i32⟩
  | .hbm, ⟨14, _⟩ => ⟨S_, .i32⟩
  | .hbm, ⟨15, _⟩ => ⟨S2048x1, .i32⟩
  | .hbm, ⟨16, _⟩ => ⟨S2048x1, .i1⟩
  | .hbm, ⟨17, _⟩ => ⟨S1x1, .i32⟩
  | .hbm, ⟨18, _⟩ => ⟨S2048x1, .i32⟩
  | .hbm, ⟨19, _⟩ => ⟨S2048x1, .i1⟩
  | .hbm, ⟨20, _⟩ => ⟨S2048x1, .i1⟩
  | .hbm, ⟨21, _⟩ => ⟨S_, .i1⟩
  | .hbm, ⟨22, _⟩ => ⟨S2048, .i1⟩
  | .hbm, ⟨23, _⟩ => ⟨S2048x1024, .f32⟩
  | .hbm, ⟨24, _⟩ => ⟨S2048x1024, .i1⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S1x2048x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x2048, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S4x2048x1024, .f32⟩
  | .hbm, ⟨47, _⟩ => ⟨S4x2048x1024, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S4x2048x1, .f32⟩
  | .hbm, ⟨52, _⟩ => ⟨S4x2048x1024, .f32⟩
  | .hbm, ⟨53, _⟩ => ⟨S4x2048x1024, .f32⟩
  | .hbm, ⟨54, _⟩ => ⟨S1x1x1024, .f32⟩
  | .hbm, ⟨55, _⟩ => ⟨S4x2048x1024, .f32⟩
  | .hbm, ⟨56, _⟩ => ⟨S4x2048x1024, .f32⟩
  | .hbm, ⟨57, _⟩ => ⟨S1x1x1024, .f32⟩
  | .hbm, ⟨58, _⟩ => ⟨S4x2048x1024, .f32⟩
  | .hbm, ⟨59, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S2048x1024_0 : S2048.BroadcastsInDim S2048x1024 (![0] : Fin 1 → Fin S2048x1024.rank)
  bcast_S_S2048x1024 : S_.BroadcastsInDim S2048x1024 (![] : Fin 0 → Fin S2048x1024.rank)
  bcast_S2048x1024_S1x2048x1024_1_2 : S2048x1024.BroadcastsInDim S1x2048x1024 (![1, 2] : Fin 2 → Fin S1x2048x1024.rank)
  bcast_S1x2048x1024_S4x2048x1024_0_1_2 : S1x2048x1024.BroadcastsInDim S4x2048x1024 (![0, 1, 2] : Fin 3 → Fin S4x2048x1024.rank)
  reducesTo_S4x2048x1024_S4x2048_d2 : S4x2048x1024.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  gather_S2048x1024_S2048x1_S2048x1024_1_0_n_n_0_1_11024_wf : GatherDims.WF S2048x1024 S2048x1 S2048x1024 [1] [0] [] [0] [] 1 ![1, 1024]

variable [Facts₀]

def gather_S2048x1024_S2048x1_S2048x1024_1_0_n_n_0_1_11024 : GatherDims S2048x1024 S2048x1 S2048x1024 where
  offsetDims := [1]
  collapsedSliceDims := [0]
  operandBatchingDims := []
  startIndicesBatchingDims := []
  startIndexMap := [0]
  indexVectorDim := 1
  sliceSizes := ![1, 1024]
  wf := gather_S2048x1024_S2048x1_S2048x1024_1_0_n_n_0_1_11024_wf

class Facts : Prop extends Facts₀ where

variable [Facts]
-- ==== Proof.Finite.lean ====
/-
  Finite inputs are real inputs.

  The precondition is the conjunction of four `jnp.all (|v| < +∞)`, one per argument. A reduce by `and` that is 1
  had a 1 at every element; `+∞` is the top of the extended reals; and an extended real whose absolute value
  `max x (-x)` is below the top is neither `⊤` nor `⊥`: it is a real.
-/
import proofs.«134733_g7713761264236_cont_9to1c4b_83_18_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic Idealize.ShloMosaic.ValueIdx

instance : Subsingleton S_.Idx := ⟨fun a b => funext fun d => d.elim0⟩

/-- The pattern of `+∞` denotes the top. -/
theorem ofBits_inf : Ideal.ofBits .f32 0x7F800000#32 = ⊤ := by
  simp [Ideal.ofBits, Ideal.ieee]

/-- An extended real whose absolute value is below `⊤` is a real. -/
theorem real_of_abs_lt_top (x : EReal) (h : Ideal.cmp .olt (max x (-x)) ⊤ = 1#1) : ∃ r : ℝ, x = (r : EReal) := by
  induction x using EReal.rec with
  | bot => exfalso; simp [Ideal.cmp] at h
  | top => exfalso; simp [Ideal.cmp] at h
  | coe r => exact ⟨r, rfl⟩

/-- One conjunct: `jnp.all (|v| < +∞)` makes every element of `v` a real. -/
theorem all_real {s : Shape} {axes : List (Fin s.rank)} (v : FVec Ideal s .f32)
    (hb : S_.BroadcastsInDim s (![] : Fin 0 → Fin s.rank)) (hr : s.ReducesTo axes S_) (hu : 0 < S_.numel)
    (h : Host.reduce IntOp.andi (cmpf .olt (Host.absf v) (broadcastInDim s ![] hb (constant (F := Ideal) S_ .f32 0x7F800000#32)))
        (constantI S_ 1 1#1) hr hu ix0 = 1#1) (i : s.Idx) : ∃ r : ℝ, v i = (r : EReal) := by
  have e := Host.reduce_andi_all _ _ hr hu ix0 h i
  refine real_of_abs_lt_top (v i) ?_
  rw [← ofBits_inf]
  exact e

/-- Under the precondition every element of every argument is a real. -/
theorem real_of_pre (x : FVec Ideal S4x2048x1024 .f32) (pos : FVec Ideal S2048x1024 .f32) (g b : FVec Ideal S1024 .f32)
    (h : fn (F := Ideal) x pos g b = fun _ => 1#1) :
    (∀ i, ∃ r : ℝ, x i = (r : EReal)) ∧ (∀ i, ∃ r : ℝ, pos i = (r : EReal))
      ∧ (∀ i, ∃ r : ℝ, g i = (r : EReal)) ∧ (∀ i, ∃ r : ℝ, b i = (r : EReal)) := by
  have h0 := congrFun h ix0
  dsimp only [fn, fn_part1] at h0
  have h0' : IntOp.andi (IntOp.andi (IntOp.andi _ _) _) _ = 1#1 := h0
  obtain ⟨h012, h3⟩ := IntOp.andi_eq_one.1 h0'
  obtain ⟨h01, h2⟩ := IntOp.andi_eq_one.1 h012
  obtain ⟨hx, h1⟩ := IntOp.andi_eq_one.1 h01
  exact ⟨all_real x _ _ _ hx, all_real pos _ _ _ h1, all_real g _ _ _ h2, all_real b _ _ _ h3⟩

end Cert.Pre_finite_inputs.Finite

end
-- ==== Proof.Spec.lean ====
/-
  Layer normalisation of one row, as the two programs compute it on the extended reals.

  A row is `e : Fin 1024 → EReal` (the embedding `x[b, s, ·] + pos[s, ·]`), with a gain `g` and an offset `b`.
  * `kRow`: the mean as the row sum times `2⁻¹⁰`, the variance as the mean of the squares minus the square of the
    mean, the normalisation as a product with the reciprocal square root.
  * `rRow`: the mean as the row sum divided by `1024`, the variance as the mean of the squared deviations, the
    normalisation as a quotient by the square root.
  Both add the same `ε` (one 32-bit pattern) to the variance.
-/
import Idealize.ShloMosaic.PureOps.Ideal
import Idealize.ShloMosaic.Lib.ValueIdx

noncomputable section

namespace Cert.LN

open Idealize.ShloMosaic

/-- The pattern of `2⁻¹⁰`, the kernel's folded reciprocal of the row length. -/
abbrev cInv : EReal := Ideal.ofBits .f32 0x3A800000#32
/-- The pattern of `1024`, the reference's divisor. -/
abbrev cLen : EReal := Ideal.ofBits .f32 0x44800000#32
/-- The pattern of `ε`, shared by the two programs. -/
abbrev cEps : EReal := Ideal.ofBits .f32 0x3727C5AC#32

/-- The kernel's row: `(e j - μ) · rsqrt (E[e²] - μ² + ε) · g + b` with `μ = (∑ e) · 2⁻¹⁰`. -/
def kRow (e : Fin 1024 → EReal) (g b : EReal) (j : Fin 1024) : EReal :=
  ((e j - (∑ k, e k) * cInv)
      * Ideal.rsqrt ((((∑ k, e k * e k) * cInv) - ((∑ k, e k) * cInv) * ((∑ k, e k) * cInv)) + cEps)) * g + b

/-- The reference's mean of a row: the sum from the zero pattern, divided by `1024`. -/
def rMean (e : Fin 1024 → EReal) : EReal :=
  Ideal.div (Ideal.ofBits .f32 0x00000000#32 + ∑ k, e k) cLen

/-- The reference's row: `(e j - μ) / sqrt (E[(e - μ)²] + ε) · g + b` with `μ = (∑ e) / 1024`. -/
def rRow (e : Fin 1024 → EReal) (g b : EReal) (j : Fin 1024) : EReal :=
  (Ideal.div (e j - rMean e)
      (Ideal.sqrt (Ideal.div (Ideal.ofBits .f32 0x00000000#32 + ∑ k, (e k - rMean e) * (e k - rMean e)) cLen + cEps))) * g + b

end Cert.LN

end
-- ==== Proof.KRow.lean ====
/-
  The block the kernel body leaves, row by row.

  At a block index `(p, q, j)` — batch `p`, row `q` of the point's 512 sequence rows, lane `j` — the body stores
  the layer normalisation of the row `e k = x0 (p, q, k) + x1 (q, k)`, `k < 1024`, with gain `x2 (0, j)` and offset
  `x3 (0, j)`: the two lane reductions are the sums `∑ k, e k` and `∑ k, e k * e k` over the row.
-/
import proofs.«134733_g7713761264236_cont_9to1c4b_83_18_alg».proof.Proof.Gen.KernelIdeal.Value
import proofs.«134733_g7713761264236_cont_9to1c4b_83_18_alg».proof.Proof.Spec
import Idealize.ShloMosaic.Lib.Pipeline.Value
import Idealize.ShloMosaic.Lib.ValueIdx
import Idealize.ShloMosaic.PureOps.Ideal.Laws

noncomputable section

namespace Cert.KernelIdeal.LNRow

open Cert.KernelIdeal Cert.KernelIdeal.Gen Cert.KernelIdeal.Value Idealize.ShloMosaic Idealize.ShloMosaic.ValueIdx

/-- The embedding block: the `x` block plus the positional block laid under every batch. -/
abbrev embBlk (P0 : Vec Ideal S4x512x1024 .f32) (P1 : Vec Ideal S512x1024 .f32) : FVec Ideal S4x512x1024 .f32 :=
  addf P0 (broadcastTo S4x512x1024 (shapeCast S1x512x1024 P1 shapeCasts_S512x1024_S1x512x1024) broadcasts_S1x512x1024_S4x512x1024)

/-- The embedding block at `(p, q, k)` is `x0 (p, q, k) + x1 (q, k)`. -/
theorem embBlk_apply (P0 : Vec Ideal S4x512x1024 .f32) (P1 : Vec Ideal S512x1024 .f32) (p : Fin 4) (q : Fin 512) (k : Fin 1024) :
    embBlk P0 P1 (ix3 p q k) = P0 (ix3 p q k) + P1 (ix2 q k) := by
  show P0 (ix3 p q k) + (broadcastTo S4x512x1024 (shapeCast S1x512x1024 P1 shapeCasts_S512x1024_S1x512x1024) broadcasts_S1x512x1024_S4x512x1024) (ix3 p q k) = _
  congr 1
  refine (broadcastTo_apply _ _ (ix3 p q k) (ix3 (0 : Fin 1) q k) (fun a => match a with
    | ⟨0, _⟩ => by show 0 = (if (1 : Nat) = 1 then 0 else p.val); rw [if_pos rfl]
    | ⟨1, _⟩ => by show q.val = (if (512 : Nat) = 1 then 0 else q.val); rw [if_neg (by decide)]
    | ⟨2, _⟩ => by show k.val = (if (1024 : Nat) = 1 then 0 else k.val); rw [if_neg (by decide)])).trans ?_
  exact shapeCast_apply _ _ (ix3 (0 : Fin 1) q k) (ix2 q k)
    (by rw [Shape.rowMajor_val_two, Shape.rowMajor_val_three]; show q.val * 1024 + k.val = (0 * 512 + q.val) * 1024 + k.val; omega)

/-- The row of a reduced index with lane `k` put back is `(p, q, k)`. -/
theorem lift_row (h : S4x512x1024.Reduces [2] S4x512) (p : Fin 4) (q : Fin 512) (k : Fin (S4x512x1024.size 2)) :
    h.lift (ix2 p q) k = ix3 p q (⟨k.val, k.isLt⟩ : Fin 1024) := by
  funext c; apply Fin.ext
  fin_cases c <;> rfl

/-- A lane reduction of a block at `(p, q)` is the sum over the row's 1024 lanes. -/
theorem laneSum_apply (v : FVec Ideal S4x512x1024 .f32) (hacc : (0x00000000#32 : BitVec 32) = 0x00000000#32) (p : Fin 4) (q : Fin 512) :
    multiReduction .add [2] S4x512 v 0x00000000#32 reduces_S4x512x1024_S4x512 (.inl rfl) hacc (ix2 p q)
      = ∑ k : Fin 1024, v (ix3 p q k) := by
  refine (Ideal.multiReduction_add_single v 0x00000000#32 reduces_S4x512x1024_S4x512 (.inl rfl) hacc (ix2 p q)).trans ?_
  exact Finset.sum_congr rfl fun k _ => congrArg v (lift_row reduces_S4x512x1024_S4x512 p q k)

/-- The block the pieces leave, at `(p, q, j)`, is the kernel's row formula of the row `x0 (p, q, ·) + x1 (q, ·)`. -/
theorem E4_row (P0 : Vec Ideal S4x512x1024 .f32) (P1 : Vec Ideal S512x1024 .f32) (P2 P3 : Vec Ideal S1x1024 .f32)
    (p : Fin 4) (q : Fin 512) (j : Fin 1024) :
    E4 P0 P1 P2 P3 (ix3 p q j)
      = Cert.LN.kRow (fun k => P0 (ix3 p q k) + P1 (ix2 q k)) (P2 (ix2 (0 : Fin 1) j)) (P3 (ix2 (0 : Fin 1) j)) j := by
  have i0 : ix4_0 (ix3 p q j) = ix3 p q j := by funext a; apply Fin.ext; fin_cases a <;> rfl
  have i1 : ix4_1 (ix3 p q j) = ix2 q j := by funext a; apply Fin.ext; fin_cases a <;> rfl
  have i2 : ix4_2 (ix3 p q j) = ix2 p q := by funext a; apply Fin.ext; fin_cases a <;> rfl
  have i3 : ix4_3 (ix3 p q j) = ix2 p q := by funext a; apply Fin.ext; fin_cases a <;> rfl
  have i4 : ix4_4 (ix3 p q j) = ix2 p q := by funext a; apply Fin.ext; fin_cases a <;> rfl
  have i5 : ix4_5 (ix3 p q j) = ix2 p q := by funext a; apply Fin.ext; fin_cases a <;> rfl
  have i6 : ix4_6 (ix3 p q j) = ix2 (0 : Fin 1) j := by funext a; apply Fin.ext; fin_cases a <;> rfl
  have i7 : ix4_7 (ix3 p q j) = ix2 (0 : Fin 1) j := by funext a; apply Fin.ext; fin_cases a <;> rfl
  have s1 : multiReduction .add [2] S4x512 (embBlk P0 P1) 0x00000000#32 reduces_S4x512x1024_S4x512 (.inl rfl) rfl (ix2 p q)
      = ∑ k : Fin 1024, (P0 (ix3 p q k) + P1 (ix2 q k)) :=
    (laneSum_apply (embBlk P0 P1) rfl p q).trans (Finset.sum_congr rfl fun k _ => embBlk_apply P0 P1 p q k)
  have s2 : multiReduction .add [2] S4x512 (mulf (embBlk P0 P1) (embBlk P0 P1)) 0x00000000#32 reduces_S4x512x1024_S4x512 (.inl rfl) rfl (ix2 p q)
      = ∑ k : Fin 1024, (P0 (ix3 p q k) + P1 (ix2 q k)) * (P0 (ix3 p q k) + P1 (ix2 q k)) :=
    (laneSum_apply (mulf (embBlk P0 P1) (embBlk P0 P1)) rfl p q).trans (Finset.sum_congr rfl fun k _ => by
      show embBlk P0 P1 (ix3 p q k) * embBlk P0 P1 (ix3 p q k) = _
      rw [embBlk_apply])
  show (((P0 (ix4_0 (ix3 p q j)) + P1 (ix4_1 (ix3 p q j)))
        - (multiReduction .add [2] S4x512 (embBlk P0 P1) 0x00000000#32 reduces_S4x512x1024_S4x512 (.inl rfl) rfl (ix4_2 (ix3 p q j))) * Cert.LN.cInv)
      * Ideal.rsqrt ((((multiReduction .add [2] S4x512 (mulf (embBlk P0 P1) (embBlk P0 P1)) 0x00000000#32 reduces_S4x512x1024_S4x512 (.inl rfl) rfl (ix4_3 (ix3 p q j))) * Cert.LN.cInv)
          - ((multiReduction .add [2] S4x512 (embBlk P0 P1) 0x00000000#32 reduces_S4x512x1024_S4x512 (.inl rfl) rfl (ix4_4 (ix3 p q j))) * Cert.LN.cInv)
            * ((multiReduction .add [2] S4x512 (embBlk P0 P1) 0x00000000#32 reduces_S4x512x1024_S4x512 (.inl rfl) rfl (ix4_5 (ix3 p q j))) * Cert.LN.cInv))
          + Cert.LN.cEps)) * P2 (ix4_6 (ix3 p q j)) + P3 (ix4_7 (ix3 p q j)) = _
  rw [i0, i1, i2, i3, i4, i5, i6, i7, s1, s2]
  rfl

end Cert.KernelIdeal.LNRow

end
-- ==== Proof.KValue.lean ====
/-
  From the blocks to the whole array.

  Grid point `t` (of four) works on sequence rows `512 t … 512 t + 511` of every batch: its `x` block is rows
  `512 t + q` of `x`, its positional block rows `512 t + q` of the table, its gain and offset blocks the whole
  gain and offset vectors (reshaped to one row before the region). So the block it writes back is the restriction, to
  those rows, of ONE function `G` of the four arguments: at `(b, s, j)` the kernel's row formula of the row
  `x (b, s, ·) + pos (s, ·)`. The four blocks tile the array (row `s` lies in block `s / 512`), so the array ends
  holding `G`.
-/
import proofs.«134733_g7713761264236_cont_9to1c4b_83_18_alg».proof.Proof.KRow
import Idealize.ShloMosaic.Lib.StableHlo.Run

noncomputable section

namespace Cert.KernelIdeal.LNValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- What the result array ends holding: at `(b, s, j)` the kernel's row formula of the embedding row `(b, s)`. -/
def G (x : S4x2048x1024.Idx → Elt Ideal .f32) (pos : S2048x1024.Idx → Elt Ideal .f32) (g b : S1024.Idx → Elt Ideal .f32) :
    S4x2048x1024.Idx → Elt Ideal .f32 :=
  fun i => Cert.LN.kRow (fun k => x (ix3 (i 0) (i 1) k) + pos (ix2 (i 1) k)) (g (ix1 (i 2))) (b (ix1 (i 2))) (i 2)

/-- What the body leaves in the output block at `(p, q, j)`, over any four input blocks. -/
theorem out_row (x0 : Vec Ideal S4x512x1024 .f32) (x1 : Vec Ideal S512x1024 .f32) (x2 x3 : Vec Ideal S1x1024 .f32)
    (p : Fin 4) (q : Fin 512) (j : Fin 1024) :
    out0_4 x0 x1 x2 x3 (ix3 p q j)
      = Cert.LN.kRow (fun k => x0 (ix3 p q k) + x1 (ix2 q k)) (x2 (ix2 (0 : Fin 1) j)) (x3 (ix2 (0 : Fin 1) j)) j := by
  unfold out0_4
  rw [canon4_eq]
  simp only [View.ld_unit_zero (S := S4x512x1024) hz3, View.ld_unit_zero (S := S512x1024) hz2,
    View.ld_unit_zero (S := S1x1024) hz2]
  exact LNRow.E4_row x0 x1 x2 x3 p q j

/-- The printed index maps over the four grid points: point `t` takes block `t` along the sequence axis of `x`, of the
    table and of the result, and block `0` of everything else. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

/-- The `x` block at point `t` is rows `512 t + q` of `x`. -/
theorem iblk0_apply (c : Dev nD) (t : Fin cfg0.N) (p : Fin 4) (q : Fin 512) (k : Fin 1024) (s : Fin 2048)
    (hs : s.val = t.val * 512 + q.val) :
    (iblk m c 0 t : Vec Ideal S4x512x1024 .f32) (ix3 p q k)
      = (m ((c : Thread nD τ).loc main_arg0) : S4x2048x1024.Idx → Elt Ideal .f32) (ix3 p s k) := by
  obtain ⟨e0, e1, e2, -⟩ := idx_facts t
  unfold iblk
  rw [View.read_apply]
  show V m c main_arg0 _ = _
  refine (congrFun (V_main_arg0 m c) _).trans ?_
  refine congrArg (m ((c : Thread nD τ).loc main_arg0) : S4x2048x1024.Idx → Elt Ideal .f32) ?_
  funext a; apply Fin.ext
  match a with
  | ⟨0, _⟩ => show win0_0.index t (0 : Fin 3) * 4 + 1 * p.val = p.val; rw [e0]; omega
  | ⟨1, _⟩ => show win0_0.index t (1 : Fin 3) * 512 + 1 * q.val = s.val; rw [e1, hs]; omega
  | ⟨2, _⟩ => show win0_0.index t (2 : Fin 3) * 1024 + 1 * k.val = k.val; rw [e2]; omega

/-- The positional block at point `t` is rows `512 t + q` of the table. -/
theorem iblk1_apply (c : Dev nD) (t : Fin cfg0.N) (q : Fin 512) (k : Fin 1024) (s : Fin 2048)
    (hs : s.val = t.val * 512 + q.val) :
    (iblk m c 1 t : Vec Ideal S512x1024 .f32) (ix2 q k)
      = (m ((c : Thread nD τ).loc main_arg1) : S2048x1024.Idx → Elt Ideal .f32) (ix2 s k) := by
  obtain ⟨-, -, -, e0, e1, -⟩ := idx_facts t
  unfold iblk
  rw [View.read_apply]
  show V m c main_arg1 _ = _
  refine (congrFun (V_main_arg1 m c) _).trans ?_
  refine congrArg (m ((c : Thread nD τ).loc main_arg1) : S2048x1024.Idx → Elt Ideal .f32) ?_
  funext a; apply Fin.ext
  match a with
  | ⟨0, _⟩ => show win0_1.index t (0 : Fin 2) * 512 + 1 * q.val = s.val; rw [e0, hs]; omega
  | ⟨1, _⟩ => show win0_1.index t (1 : Fin 2) * 1024 + 1 * k.val = k.val; rw [e1]; omega

/-- The gain vector as the region finds it: the argument reshaped to one row. -/
theorem V_gain (c : Dev nD) : (V m c main_v0 : S1x1024.Idx → Elt Ideal .f32)
    = shapeCast S1x1024 (m ((c : Thread nD τ).loc main_arg2) : S1024.Idx → Elt Ideal .f32) shapeCasts_S1024_S1x1024 := by
  dsimp only [Gen.V, Gen.hostOps0]
  after_results
  rfl

/-- The offset vector as the region finds it: the argument reshaped to one row. -/
theorem V_offset (c : Dev nD) : (V m c main_v1 : S1x1024.Idx → Elt Ideal .f32)
    = shapeCast S1x1024 (m ((c : Thread nD τ).loc main_arg3) : S1024.Idx → Elt Ideal .f32) shapeCasts_S1024_S1x1024 := by
  dsimp only [Gen.V, Gen.hostOps0]
  after_results
  rfl

/-- One row read at lane `j` is the vector at `j`. -/
theorem row_apply (v : S1024.Idx → Elt Ideal .f32) (i : S1x1024.Idx) (j : Fin 1024) (hi : (i 1).val = j.val) :
    shapeCast S1x1024 v shapeCasts_S1024_S1x1024 i = v (ix1 j) := by
  refine shapeCast_apply _ _ i (ix1 j) ?_
  have h0 : (i 0).val < 1 := (i 0).isLt
  rw [Shape.rowMajor_val_two, Shape.rowMajor_val_one]
  show j.val = (i 0).val * 1024 + (i 1).val
  omega

/-- The gain block at every point is the gain vector. -/
theorem iblk2_apply (c : Dev nD) (t : Fin cfg0.N) (j : Fin 1024) :
    (iblk m c 2 t : Vec Ideal S1x1024 .f32) (ix2 (0 : Fin 1) j)
      = (m ((c : Thread nD τ).loc main_arg2) : S1024.Idx → Elt Ideal .f32) (ix1 j) := by
  obtain ⟨-, -, -, -, -, e0, e1, -⟩ := idx_facts t
  unfold iblk
  rw [View.read_apply]
  show V m c main_v0 _ = _
  refine (congrFun (V_gain m c) _).trans ?_
  refine row_apply _ _ j ?_
  show win0_2.index t (1 : Fin 2) * 1024 + 1 * j.val = j.val
  rw [e1]; omega

/-- The offset block at every point is the offset vector. -/
theorem iblk3_apply (c : Dev nD) (t : Fin cfg0.N) (j : Fin 1024) :
    (iblk m c 3 t : Vec Ideal S1x1024 .f32) (ix2 (0 : Fin 1) j)
      = (m ((c : Thread nD τ).loc main_arg3) : S1024.Idx → Elt Ideal .f32) (ix1 j) := by
  obtain ⟨-, -, -, -, -, -, -, e0, e1, -⟩ := idx_facts t
  unfold iblk
  rw [View.read_apply]
  show V m c main_v1 _ = _
  refine (congrFun (V_offset m c) _).trans ?_
  refine row_apply _ _ j ?_
  show win0_3.index t (1 : Fin 2) * 1024 + 1 * j.val = j.val
  rw [e1]; omega

/-- The whole-array function of the arguments, for device `c`. -/
abbrev Gm (c : Dev nD) : S4x2048x1024.Idx → Elt Ideal .f32 :=
  G (m ((c : Thread nD τ).loc main_arg0)) (m ((c : Thread nD τ).loc main_arg1)) (m ((c : Thread nD τ).loc main_arg2))
    (m ((c : Thread nD τ).loc main_arg3))

/-- Four input blocks that are the rows `s` of the arguments give, at `(p, q, j)`, `G` at `(p, s, j)`. -/
theorem row_congr (x0 : Vec Ideal S4x512x1024 .f32) (x1 : Vec Ideal S512x1024 .f32) (x2 x3 : Vec Ideal S1x1024 .f32)
    (X : S4x2048x1024.Idx → Elt Ideal .f32) (pos : S2048x1024.Idx → Elt Ideal .f32) (g b : S1024.Idx → Elt Ideal .f32)
    (p : Fin 4) (q : Fin 512) (j : Fin 1024) (s : Fin 2048)
    (h0 : ∀ k : Fin 1024, x0 (ix3 p q k) = X (ix3 p s k)) (h1 : ∀ k : Fin 1024, x1 (ix2 q k) = pos (ix2 s k))
    (h2 : x2 (ix2 (0 : Fin 1) j) = g (ix1 j)) (h3 : x3 (ix2 (0 : Fin 1) j) = b (ix1 j)) :
    out0_4 x0 x1 x2 x3 (ix3 p q j) = G X pos g b (ix3 p s j) := by
  refine (out_row x0 x1 x2 x3 p q j).trans ?_
  have f : (fun k : Fin 1024 => x0 (ix3 p q k) + x1 (ix2 q k)) = fun k : Fin 1024 => X (ix3 p s k) + pos (ix2 s k) :=
    funext fun k => by rw [h0 k, h1 k]
  rw [f, h2, h3]
  rfl

/-- What point `t` leaves at `(p, q, j)` of its block is `G` at `(p, 512 t + q, j)`. -/
theorem block_eq (c : Dev nD) (t : Fin cfg0.N) (p : Fin 4) (q : Fin 512) (j : Fin 1024) (s : Fin 2048)
    (hs : s.val = t.val * 512 + q.val) :
    out0_4 (iblk m c 0 t) (iblk m c 1 t) (iblk m c 2 t) (iblk m c 3 t) (ix3 p q j) = Gm m c (ix3 p s j) :=
  row_congr (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) p q j s
    (fun k => iblk0_apply m c t p q k s hs) (fun k => iblk1_apply m c t q k s hs) (iblk2_apply m c t j) (iblk3_apply m c t j)

/-- WHAT POINT `t` WRITES BACK is block `t` of `G` of the arguments. -/
theorem flushed_eq (c : Dev nD) (t : Fin cfg0.N) :
    (dats m 0 c).flushed 4 t = ((cfg0.win 4).blk t).view.read (Elt Ideal) (Gm m c) := by
  rw [flushed4]
  funext y
  obtain ⟨-, -, -, -, -, -, -, -, -, e0, e1, e2⟩ := idx_facts t
  have hN : grid0.N = 4 := N_0
  have ht : t.val < 4 := hN ▸ t.isLt
  have hy0 : (y 0).val < 4 := (y 0).isLt
  have hy1 : (y 1).val < 512 := (y 1).isLt
  have hy2 : (y 2).val < 1024 := (y 2).isLt
  have hemb : ((cfg0.win 4).blk t).view.emb y
      = ix3 (⟨(y 0).val, hy0⟩ : Fin 4) (⟨t.val * 512 + (y 1).val, by omega⟩ : Fin 2048) (⟨(y 2).val, hy2⟩ : Fin 1024) := by
    funext a; apply Fin.ext
    match a with
    | ⟨0, _⟩ => show win0_4.index t (0 : Fin 3) * 4 + 1 * (y 0).val = (y 0).val; rw [e0]; omega
    | ⟨1, _⟩ => show win0_4.index t (1 : Fin 3) * 512 + 1 * (y 1).val = t.val * 512 + (y 1).val; rw [e1]; omega
    | ⟨2, _⟩ => show win0_4.index t (2 : Fin 3) * 1024 + 1 * (y 2).val = (y 2).val; rw [e2]; omega
  have hy : y = ix3 (⟨(y 0).val, hy0⟩ : Fin 4) (⟨(y 1).val, hy1⟩ : Fin 512) (⟨(y 2).val, hy2⟩ : Fin 1024) := by
    funext a; apply Fin.ext
    match a with
    | ⟨0, _⟩ => rfl
    | ⟨1, _⟩ => rfl
    | ⟨2, _⟩ => rfl
  show out0_4 (iblk m c 0 t) (iblk m c 1 t) (iblk m c 2 t) (iblk m c 3 t) y = Gm m c (((cfg0.win 4).blk t).view.emb y)
  rw [hemb]
  refine (congrArg (out0_4 (iblk m c 0 t) (iblk m c 1 t) (iblk m c 2 t) (iblk m c 3 t)) hy).trans ?_
  exact block_eq m c t _ _ _ _ rfl

/-- An index of the array is in point `t`'s block iff each coordinate is in the block's range on its axis. -/
theorem mem_blk (t : Fin cfg0.N) (i : S4x2048x1024.Idx) :
    i ∈ ((cfg0.win 4).blk t).view.set ↔ ∀ a : Fin 3, win0_4.index t a * S4x512x1024.size a ≤ (i a).val
      ∧ (i a).val < win0_4.index t a * S4x512x1024.size a + S4x512x1024.size a := by
  show i ∈ ((View.whole main_v2).slice (win0_4.rect t)).set ↔ _
  rw [View.set_slice_whole, Rect.mem_set_unit]
  exact Iff.rfl

/-- Every index of the array lies in the block of the point its sequence row belongs to. -/
theorem cover (i : S4x2048x1024.Idx) :
    ∃ t : Fin cfg0.N, (cfg0.win 4).flush t = true ∧ i ∈ ((cfg0.win 4).blk t).view.set := by
  have hN : grid0.N = 4 := N_0
  have hi0 : (i 0).val < 4 := (i 0).isLt
  have hi1 : (i 1).val < 2048 := (i 1).isLt
  have hi2 : (i 2).val < 1024 := (i 2).isLt
  have hlt : (i 1).val / 512 < grid0.N := by rw [hN]; omega
  refine ⟨⟨(i 1).val / 512, hlt⟩, flush0_4 _, ?_⟩
  rw [mem_blk]
  obtain ⟨-, -, -, -, -, -, -, -, -, e0, e1, e2⟩ := idx_facts ⟨(i 1).val / 512, hlt⟩
  intro a
  match a with
  | ⟨0, _⟩ =>
    show win0_4.index ⟨(i 1).val / 512, hlt⟩ (0 : Fin 3) * 4 ≤ (i 0).val ∧ (i 0).val < win0_4.index ⟨(i 1).val / 512, hlt⟩ (0 : Fin 3) * 4 + 4
    rw [e0]; omega
  | ⟨1, _⟩ =>
    show win0_4.index ⟨(i 1).val / 512, hlt⟩ (1 : Fin 3) * 512 ≤ (i 1).val ∧ (i 1).val < win0_4.index ⟨(i 1).val / 512, hlt⟩ (1 : Fin 3) * 512 + 512
    rw [e1]; show (i 1).val / 512 * 512 ≤ (i 1).val ∧ (i 1).val < (i 1).val / 512 * 512 + 512; omega
  | ⟨2, _⟩ =>
    show win0_4.index ⟨(i 1).val / 512, hlt⟩ (2 : Fin 3) * 1024 ≤ (i 2).val ∧ (i 2).val < win0_4.index ⟨(i 1).val / 512, hlt⟩ (2 : Fin 3) * 1024 + 1024
    rw [e2]; omega

/-- THE ARRAY after the run is `G` of the arguments. -/
theorem final (c : Dev nD) : (dats m 0 c).arrAt 4 cfg0.N = Gm m c :=
  (dats m 0 c).arrAt_eq_of_cover 4 (Gm m c) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v2) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.LNValue

end
-- ==== Proof.RefRun.lean ====
/-
  The reference program's run, read back as one function of its four arguments.

  The program looks up rows `0 … 2047` of the position table (the positions counted from the end when negative, a
  row outside the table replaced by a fill value), adds the rows to every batch entry of the input, and normalises
  each row of 1024 entries: the mean is the row sum divided by 1024, the variance the mean of the squared
  deviations, the result the deviation divided by the square root of the variance plus a small constant, times a
  gain, plus an offset.  Each stage below is one or a few of the program's operations applied to earlier stages;
  `refOut` is their composition, and `run` says every weakly fair execution of the program ends with the result
  buffer holding `refOut` of the argument buffers' contents at launch, the arguments unchanged.
-/
import proofs.«134733_g7713761264236_cont_9to1c4b_83_18_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations -/

/-- The program's 56 operations in order: the positions `0 … 2047`; the 23 operations of the table lookup (the
    index wrap's select in its place); the 32 operations of the embedding sum and the normalisation. -/
abbrev ops : List (HloOp τ sig (Elt F)) :=
  [ nullary main_v0 (iotaInDim S2048 32 0),
    TRef.nullary main_call0.c (constantI S_ 32 0#32),
    TRef.unary main_call0.c main_call0.v0 (broadcastInDim S2048 ![] bcast_S_S2048),
    TRef.binary (.of main_v0) main_call0.v0 main_call0.v1 (cmpi .slt),
    TRef.nullary main_call0.c_0 (constantI S_ 32 2048#32),
    TRef.unary main_call0.c_0 main_call0.v2 (broadcastInDim S2048 ![] bcast_S_S2048),
    TRef.binary (.of main_v0) main_call0.v2 main_call0.v3 addi,
    TRef.ternary main_call0.v1 main_call0.v3 (.of main_v0) main_call0.call0.v0 select,
    TRef.unary main_call0.call0.v0 main_call0.v5 (broadcastInDim S2048x1 ![0] bcast_S2048_S2048x1_0),
    TRef.nullary main_call0.c_1 (constantI S1 32 2047#32),
    TRef.nullary main_call0.c_2 (constantI S_ 32 0#32),
    TRef.unary main_call0.c_2 main_call0.v6 (broadcastInDim S2048x1 ![] bcast_S_S2048x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2048x1 ![0, 1] bcast_S1x1_S2048x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1_S2048_d1 h_S_),
    TRef.binary (.of main_arg1) main_call0.v5 main_call0.v13 (fun x i => Host.gather gather_S2048x1024_S2048x1_S2048x1024_1_0_n_n_0_1_11024 x i),
    TRef.unary main_call0.v12 main_call0.v14 (broadcastInDim S2048x1024 ![0] bcast_S2048_S2048x1024_0),
    TRef.nullary main_call0.cst (constant S_ .f32 0x7FC00000#32),
    TRef.unary main_call0.cst main_call0.v15 (broadcastInDim S2048x1024 ![] bcast_S_S2048x1024),
    TRef.ternary main_call0.v14 main_call0.v13 main_call0.v15 main_call0.v16 select,
    unary main_v1 main_v2 (broadcastInDim S1x2048x1024 ![1, 2] bcast_S2048x1024_S1x2048x1024_1_2 : (⟨S2048x1024, .f32⟩ : BufTy).Contents (Elt F) → (⟨S1x2048x1024, .f32⟩ : BufTy).Contents (Elt F)),
    unary main_v2 main_v3 (broadcastInDim S4x2048x1024 ![0, 1, 2] bcast_S1x2048x1024_S4x2048x1024_0_1_2 : (⟨S1x2048x1024, .f32⟩ : BufTy).Contents (Elt F) → (⟨S4x2048x1024, .f32⟩ : BufTy).Contents (Elt F)),
    binary main_arg0 main_v3 main_v4 (addf : (⟨S4x2048x1024, .f32⟩ : BufTy).Contents (Elt F) → (⟨S4x2048x1024, .f32⟩ : BufTy).Contents (Elt F) → (⟨S4x2048x1024, .f32⟩ : BufTy).Contents (Elt F)),
    nullary main_cst (constant S_ .f32 0x00000000#32),
    binary main_v4 main_cst main_v5 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v5 main_v6 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x44800000#32),
    unary main_cst_0 main_v7 (broadcastInDim S4x2048x1 ![] bcast_S_S4x2048x1 : (⟨S_, .f32⟩ : BufTy).Contents (Elt F) → (⟨S4x2048x1, .f32⟩ : BufTy).Contents (Elt F)),
    binary main_v6 main_v7 main_v8 (Host.divf : (⟨S4x2048x1, .f32⟩ : BufTy).Contents (Elt F) → (⟨S4x2048x1, .f32⟩ : BufTy).Contents (Elt F) → (⟨S4x2048x1, .f32⟩ : BufTy).Contents (Elt F)),
    unary main_v8 main_v9 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v4 main_v9 main_v10 (subf : (⟨S4x2048x1024, .f32⟩ : BufTy).Contents (Elt F) → (⟨S4x2048x1024, .f32⟩ : BufTy).Contents (Elt F) → (⟨S4x2048x1024, .f32⟩ : BufTy).Contents (Elt F)),
    binary main_v10 main_v10 main_v11 (mulf : (⟨S4x2048x1024, .f32⟩ : BufTy).Contents (Elt F) → (⟨S4x2048x1024, .f32⟩ : BufTy).Contents (Elt F) → (⟨S4x2048x1024, .f32⟩ : BufTy).Contents (Elt F)),
    nullary main_cst_1 (constant S_ .f32 0x00000000#32),
    binary main_v11 main_cst_1 main_v12 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v12 main_v13 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_2 (constant S_ .f32 0x44800000#32),
    unary main_cst_2 main_v14 (broadcastInDim S4x2048x1 ![] bcast_S_S4x2048x1 : (⟨S_, .f32⟩ : BufTy).Contents (Elt F) → (⟨S4x2048x1, .f32⟩ : BufTy).Contents (Elt F)),
    binary main_v13 main_v14 main_v15 (Host.divf : (⟨S4x2048x1, .f32⟩ : BufTy).Contents (Elt F) → (⟨S4x2048x1, .f32⟩ : BufTy).Contents (Elt F) → (⟨S4x2048x1, .f32⟩ : BufTy).Contents (Elt F)),
    unary main_v8 main_v16 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v4 main_v16 main_v17 (subf : (⟨S4x2048x1024, .f32⟩ : BufTy).Contents (Elt F) → (⟨S4x2048x1024, .f32⟩ : BufTy).Contents (Elt F) → (⟨S4x2048x1024, .f32⟩ : BufTy).Contents (Elt F)),
    nullary main_cst_3 (constant S_ .f32 0x3727C5AC#32),
    unary main_cst_3 main_v18 (broadcastInDim S4x2048x1 ![] bcast_S_S4x2048x1 : (⟨S_, .f32⟩ : BufTy).Contents (Elt F) → (⟨S4x2048x1, .f32⟩ : BufTy).Contents (Elt F)),
    binary main_v15 main_v18 main_v19 (addf : (⟨S4x2048x1, .f32⟩ : BufTy).Contents (Elt F) → (⟨S4x2048x1, .f32⟩ : BufTy).Contents (Elt F) → (⟨S4x2048x1, .f32⟩ : BufTy).Contents (Elt F)),
    unary main_v19 main_v20 (Host.sqrt : (⟨S4x2048x1, .f32⟩ : BufTy).Contents (Elt F) → (⟨S4x2048x1, .f32⟩ : BufTy).Contents (Elt F)),
    unary main_v20 main_v21 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v17 main_v21 main_v22 (Host.divf : (⟨S4x2048x1024, .f32⟩ : BufTy).Contents (Elt F) → (⟨S4x2048x1024, .f32⟩ : BufTy).Contents (Elt F) → (⟨S4x2048x1024, .f32⟩ : BufTy).Contents (Elt F)),
    unary main_arg2 main_v23 (broadcastInDim S1x1x1024 ![2] bcast_S1024_S1x1x1024_2 : (⟨S1024, .f32⟩ : BufTy).Contents (Elt F) → (⟨S1x1x1024, .f32⟩ : BufTy).Contents (Elt F)),
    unary main_v23 main_v24 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v22 main_v24 main_v25 (mulf : (⟨S4x2048x1024, .f32⟩ : BufTy).Contents (Elt F) → (⟨S4x2048x1024, .f32⟩ : BufTy).Contents (Elt F) → (⟨S4x2048x1024, .f32⟩ : BufTy).Contents (Elt F)),
    unary main_arg3 main_v26 (broadcastInDim S1x1x1024 ![2] bcast_S1024_S1x1x1024_2 : (⟨S1024, .f32⟩ : BufTy).Contents (Elt F) → (⟨S1x1x1024, .f32⟩ : BufTy).Contents (Elt F)),
    unary main_v26 main_v27 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v25 main_v27 main_v28 (addf : (⟨S4x2048x1024, .f32⟩ : BufTy).Contents (Elt F) → (⟨S4x2048x1024, .f32⟩ : BufTy).Contents (Elt F) → (⟨S4x2048x1024, .f32⟩ : BufTy).Contents (Elt F)) ]

-- fifty-six binds re-associated: the rewrite under the chain recurses once per statement
set_option maxRecDepth 1024 in
/-- The program is that straight line: the two functions' bodies unfolded at their calls, sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub .., nullary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-! ## The stages -/

/-- The positions `0 … 2047`. -/
def positions : IVec S2048 32 := iotaInDim S2048 32 0

/-- The positions with a negative one counted from the table's end: `select (p < 0) (p + 2048) p`. -/
def wrapped : IVec S2048 32 :=
  select (cmpi .slt positions (broadcastInDim S2048 ![] bcast_S_S2048 (constantI S_ 32 0#32)))
    (addi positions (broadcastInDim S2048 ![] bcast_S_S2048 (constantI S_ 32 2048#32))) positions

/-- The wrapped positions as a column of start indices. -/
def idxCol : IVec S2048x1 32 := broadcastInDim S2048x1 ![0] bcast_S2048_S2048x1_0 wrapped

/-- Whether each start index lies inside the table: `0 ≤ i` and `i ≤ 2047`. -/
def inBounds : IVec S2048x1 1 :=
  andi (cmpi .sge idxCol (broadcastInDim S2048x1 ![] bcast_S_S2048x1 (constantI S_ 32 0#32)))
    (cmpi .sle idxCol (broadcastInDim S2048x1 ![0, 1] bcast_S1x1_S2048x1_0_1
      (broadcastInDim S1x1 ![1] bcast_S1_S1x1_1 (constantI S1 32 2047#32))))

/-- The conjunction of that test over the index vector's one component, per position. -/
def maskRow : IVec S2048 1 :=
  Host.reduce IntOp.andi inBounds (constantI S_ 1 1#1) reducesTo_S2048x1_S2048_d1 h_S_

/-- The table's rows at the start indices. -/
def gathered (pos : FVec F S2048x1024 .f32) : FVec F S2048x1024 .f32 :=
  Host.gather gather_S2048x1024_S2048x1_S2048x1024_1_0_n_n_0_1_11024 pos idxCol

/-- The looked-up rows: the gathered row where the index is inside the table, the fill value elsewhere. -/
def posRows (pos : FVec F S2048x1024 .f32) : FVec F S2048x1024 .f32 :=
  select (broadcastInDim S2048x1024 ![0] bcast_S2048_S2048x1024_0 maskRow) (gathered pos)
    (broadcastInDim S2048x1024 ![] bcast_S_S2048x1024 (constant S_ .f32 0x7FC00000#32))

/-- The embedding: the input plus the looked-up rows, the same rows for every batch entry. -/
def emb (x : FVec F S4x2048x1024 .f32) (pos : FVec F S2048x1024 .f32) : FVec F S4x2048x1024 .f32 :=
  addf x (broadcastInDim S4x2048x1024 ![0, 1, 2] bcast_S1x2048x1024_S4x2048x1024_0_1_2
    (broadcastInDim S1x2048x1024 ![1, 2] bcast_S2048x1024_S1x2048x1024_1_2 (posRows pos)))

/-- The mean of each row, as a column: the row sum divided by 1024. -/
def meanCol (e : FVec F S4x2048x1024 .f32) : FVec F S4x2048x1 .f32 :=
  Host.divf
    (broadcastInDim S4x2048x1 ![0, 1] bcast_S4x2048_S4x2048x1_0_1
      (Host.reduceAdd e (constant S_ .f32 0x00000000#32) reducesTo_S4x2048x1024_S4x2048_d2 h_S_))
    (broadcastInDim S4x2048x1 ![] bcast_S_S4x2048x1 (constant S_ .f32 0x44800000#32))

/-- The deviations from the row mean. -/
def centered (e : FVec F S4x2048x1024 .f32) : FVec F S4x2048x1024 .f32 :=
  subf e (broadcastInDim S4x2048x1024 ![0, 1, 2] bcast_S4x2048x1_S4x2048x1024_0_1_2 (meanCol e))

/-- The variance of each row, as a column: the sum of the squared deviations divided by 1024. -/
def varCol (e : FVec F S4x2048x1024 .f32) : FVec F S4x2048x1 .f32 :=
  Host.divf
    (broadcastInDim S4x2048x1 ![0, 1] bcast_S4x2048_S4x2048x1_0_1
      (Host.reduceAdd (mulf (centered e) (centered e)) (constant S_ .f32 0x00000000#32)
        reducesTo_S4x2048x1024_S4x2048_d2 h_S_))
    (broadcastInDim S4x2048x1 ![] bcast_S_S4x2048x1 (constant S_ .f32 0x44800000#32))

/-- The square root of the variance plus the small constant, as a column. -/
def stdCol (e : FVec F S4x2048x1024 .f32) : FVec F S4x2048x1 .f32 :=
  Host.sqrt (addf (varCol e) (broadcastInDim S4x2048x1 ![] bcast_S_S4x2048x1 (constant S_ .f32 0x3727C5AC#32)))

/-- The normalised rows: the deviations divided by that square root. -/
def normed (e : FVec F S4x2048x1024 .f32) : FVec F S4x2048x1024 .f32 :=
  Host.divf (centered e) (broadcastInDim S4x2048x1024 ![0, 1, 2] bcast_S4x2048x1_S4x2048x1024_0_1_2 (stdCol e))

/-- A vector along the last axis, repeated over the first two. -/
def alongLast (v : FVec F S1024 .f32) : FVec F S4x2048x1024 .f32 :=
  broadcastInDim S4x2048x1024 ![0, 1, 2] bcast_S1x1x1024_S4x2048x1024_0_1_2
    (broadcastInDim S1x1x1024 ![2] bcast_S1024_S1x1x1024_2 v)

/-- THE RESULT as a function of the four arguments: the normalised embedding times the gain plus the offset. -/
def refOut (x : FVec F S4x2048x1024 .f32) (pos : FVec F S2048x1024 .f32) (g b : FVec F S1024 .f32) :
    FVec F S4x2048x1024 .f32 :=
  addf (mulf (normed (emb x pos)) (alongLast g)) (alongLast b)

/-! ## The fold at the result and at the arguments -/

set_option maxHeartbeats 1600000 in
/-- The operations' fold read at the result buffer is `refOut` of the contents at the four argument buffers. -/
theorem out_eq (V : Valuation τ sig (Elt F)) :
    after ops V (main_v28 : DevRef τ sig)
      = refOut (V (main_arg0 : DevRef τ sig)) (V (main_arg1 : DevRef τ sig)) (V (main_arg2 : DevRef τ sig))
          (V (main_arg3 : DevRef τ sig)) := by
  after_results_simp
  rfl

set_option maxHeartbeats 1600000 in
/-- No operation writes the first argument. -/
theorem arg0_eq (V : Valuation τ sig (Elt F)) :
    after ops V (main_arg0 : DevRef τ sig) = V (main_arg0 : DevRef τ sig) := by
  after_results_simp

set_option maxHeartbeats 1600000 in
/-- No operation writes the second argument. -/
theorem arg1_eq (V : Valuation τ sig (Elt F)) :
    after ops V (main_arg1 : DevRef τ sig) = V (main_arg1 : DevRef τ sig) := by
  after_results_simp

set_option maxHeartbeats 1600000 in
/-- No operation writes the third argument. -/
theorem arg2_eq (V : Valuation τ sig (Elt F)) :
    after ops V (main_arg2 : DevRef τ sig) = V (main_arg2 : DevRef τ sig) := by
  after_results_simp

set_option maxHeartbeats 1600000 in
/-- No operation writes the fourth argument. -/
theorem arg3_eq (V : Valuation τ sig (Elt F)) :
    after ops V (main_arg3 : DevRef τ sig) = V (main_arg3 : DevRef τ sig) := by
  after_results_simp

/-! ## The run -/

/-- On every device, for any float values, from any memory with zero counters: every weakly fair execution of the
    program terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.RefRun

end
-- ==== Proof.LibGatherRows.lean ====
/-
  One row of a table per position: `stablehlo.gather` of a rank-2 operand `[N, D]` at a column `[E, 1]` of start
  indices, with offset axis 1, collapsed axis 0, start index map `[0]`, the index vector on axis 1 and slices
  `[1, D]` — what `x[idx]` of a matrix at a vector of row numbers lowers to. The result element `(e, k)` is the
  operand at row `idx[e, 0]`, read as a signed integer and clamped into `[0, N − 1]`, and column `k`.
-/
import Idealize.ShloMosaic.Lib.ValueIdx

noncomputable section

namespace Idealize.ShloMosaic.GatherRows

open Idealize.ShloMosaic Idealize.ShloMosaic.ValueIdx

variable {α : Type}

/-- Those dimension numbers for an operand `[N, D]`, start indices `[E, 1]` and result `[E, D]`; their conditions
    `wf` are decided on a program's literal shapes. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row the gather reads for position `e`: the start index `idx[e, 0]` read signed, clamped into `[0, N − 1]`. -/
def rowOf {N E w : Nat} (hN : 0 < N) (idx : IVec ⟨2, ![E, 1]⟩ w) (e : Fin E) : Fin N :=
  ⟨min (idx (ix2 e (0 : Fin 1))).toInt.toNat (N - 1), by omega⟩

/-- THE GATHER READ AT `(e, k)`: the operand at row `rowOf idx e`, column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N D E wf) x idx (ix2 e k) = x (ix2 (rowOf hN idx e) k) := by
  unfold Host.gather
  congr 1
  funext a
  refine Fin.ext ?_
  match a with
  | ⟨0, _⟩ =>
    show (rowsDims N D E wf).start (ix2 e k) idx 0 + (rowsDims N D E wf).batchCoord (ix2 e k) 0
      + (rowsDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e k) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N D E wf).start (ix2 e k) idx 1 + (rowsDims N D E wf).batchCoord (ix2 e k) 1
      + (rowsDims N D E wf).offCoord (ix2 e k) 1 = _
    rw [GatherDims.batchCoord_eq_zero _ _ _ List.not_mem_nil]
    unfold GatherDims.start
    rw [dif_neg (show (1 : Fin 2) ∉ (rowsDims N D E wf).startIndexMap from fun h => Nat.one_ne_zero (congrArg Fin.val (List.mem_singleton.mp h)))]
    simp only [Nat.add_zero, Nat.zero_add]
    rfl

end Idealize.ShloMosaic.GatherRows

end
-- ==== Proof.LibIdx.lean ====
/-
  Indices of arrays of small rank, written by coordinates: an index whose coordinates are given numbers is the index
  built from them.  Used to identify an index computed by a window's block map, or by a contraction's operand map, with
  the index a specification names.
-/
import Idealize.ShloMosaic.Lib.ValueIdx

namespace Cert.Proof.LibIdx

open Idealize.ShloMosaic Idealize.ShloMosaic.ValueIdx

/-- A rank-1 index with the given coordinate is the index built from it. -/
theorem ix1_ext {n0 : Nat} (x : (⟨1, ![n0]⟩ : Shape).Idx) (a : Fin n0) (h0 : (x 0 : ℕ) = a) : x = ix1 a := by
  have e0 : x 0 = a := Fin.ext h0
  exact (eq_ix1 x).trans (by rw [e0]; rfl)

/-- A rank-2 index with the given coordinates is the index built from them. -/
theorem ix2_ext {n0 n1 : Nat} (x : (⟨2, ![n0, n1]⟩ : Shape).Idx) (a : Fin n0) (b : Fin n1)
    (h0 : (x 0 : ℕ) = a) (h1 : (x 1 : ℕ) = b) : x = ix2 a b := by
  have e0 : x 0 = a := Fin.ext h0
  have e1 : x 1 = b := Fin.ext h1
  exact (eq_ix2 x).trans (by rw [e0, e1]; rfl)

/-- A rank-3 index with the given coordinates is the index built from them. -/
theorem ix3_ext {n0 n1 n2 : Nat} (x : (⟨3, ![n0, n1, n2]⟩ : Shape).Idx) (a : Fin n0) (b : Fin n1) (c : Fin n2)
    (h0 : (x 0 : ℕ) = a) (h1 : (x 1 : ℕ) = b) (h2 : (x 2 : ℕ) = c) : x = ix3 a b c := by
  have e0 : x 0 = a := Fin.ext h0
  have e1 : x 1 = b := Fin.ext h1
  have e2 : x 2 = c := Fin.ext h2
  exact (eq_ix3 x).trans (by rw [e0, e1, e2]; rfl)

end Cert.Proof.LibIdx
-- ==== Proof.LibTake.lean ====
/-
  Reading a table lookup along the first axis — `jnp.take(table, positions, axis = 0)` with the default handling of
  positions outside the table — one piece at a time, for any table `[N, D]` and any positions `[R, C]`:

  * a position below 2^31, held as a 32-bit word, read back as a signed integer, and its comparisons with 0 and
    with a bound;
  * a conjunction over an axis (`stablehlo.reduce` by `and` from 1) of words that are all 1 is 1;
  * the gather of one row per position: result entry (r, c, d) is the table's entry (row, d), where row is the
    start index at (r, c, 0) read signed and clamped into 0 … N − 1.
-/
import Idealize.ShloMosaic.Lib.ValueIdx
import Idealize.ShloMosaic.Lib.ReduceAll
import proofs.«134733_g7713761264236_cont_9to1c4b_83_18_alg».proof.Proof.LibIdx

namespace Cert.Proof.LibTake

open Idealize.ShloMosaic Idealize.ShloMosaic.ValueIdx Cert.Proof.LibIdx

/-! ## A small natural number as a 32-bit word, read signed -/

/-- A number below 2^31, as a 32-bit word, reads back signed as itself. -/
theorem toInt_ofNat_small (n : Nat) (h : n < 2147483648) : (BitVec.ofNat 32 n).toInt = (n : Int) := by
  rw [BitVec.toInt_eq_toNat_cond, BitVec.toNat_ofNat]
  have e : n % 2 ^ 32 = n := Nat.mod_eq_of_lt (by omega)
  rw [e]
  split <;> omega

/-- … and so its signed value as a natural number is itself. -/
theorem toInt_toNat_ofNat_small (n : Nat) (h : n < 2147483648) : (BitVec.ofNat 32 n).toInt.toNat = n := by
  rw [toInt_ofNat_small n h]; rfl

/-- It is not negative … -/
theorem cmpi_slt_zero (n : Nat) (h : n < 2147483648) : IntOp.cmpi .slt (BitVec.ofNat 32 n) 0#32 = 0#1 := by
  have e : (BitVec.ofNat 32 n).slt 0#32 = false := by
    rw [BitVec.slt, toInt_ofNat_small n h, decide_eq_false_iff_not]
    show ¬ ((n : Int) < 0)
    omega
  show BitVec.ofBool ((BitVec.ofNat 32 n).slt 0#32) = 0#1
  rw [e]; rfl

/-- … that is, it is at least 0 … -/
theorem cmpi_sge_zero (n : Nat) (h : n < 2147483648) : IntOp.cmpi .sge (BitVec.ofNat 32 n) 0#32 = 1#1 := by
  have e : (0#32 : BitVec 32).sle (BitVec.ofNat 32 n) = true := by
    rw [BitVec.sle, toInt_ofNat_small n h, decide_eq_true_iff]
    show (0 : Int) ≤ (n : Int)
    omega
  show BitVec.ofBool ((0#32 : BitVec 32).sle (BitVec.ofNat 32 n)) = 1#1
  rw [e]; rfl

/-- … and it is at most any bound `k` below 2^31 that it does not exceed. -/
theorem cmpi_sle_bound (n k : Nat) (hk : k < 2147483648) (h : n ≤ k) :
    IntOp.cmpi .sle (BitVec.ofNat 32 n) (BitVec.ofNat 32 k) = 1#1 := by
  have e : (BitVec.ofNat 32 n).sle (BitVec.ofNat 32 k) = true := by
    rw [BitVec.sle, toInt_ofNat_small n (by omega), toInt_ofNat_small k hk, decide_eq_true_iff]
    omega
  show BitVec.ofBool ((BitVec.ofNat 32 n).sle (BitVec.ofNat 32 k)) = 1#1
  rw [e]; rfl

/-! ## A conjunction of ones -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi (1#1) (1#1) = 1#1 := by decide
    rw [List.foldl_cons, hf a, e]
    exact foldl_andi_ones f hf l

/-- A `stablehlo.reduce` by `and`, from an initial value 1, of an array whose entries are all 1 is 1 at every index,
    whatever axes it reduces. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-! ## One table row per position -/

section TakeRows
variable {α : Type}

/-- The dimension numbers of `table[positions]` for a table `[N, D]`, start indices `[R, C, 1]` and a result
    `[R, C, D]`: the row axis collapsed and indexed, the feature axis kept whole as the result's last axis. -/
abbrev takeRowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The start-indices index `[r, c, 0]` under result index `(r, c, d)`. -/
abbrev startIdx {R C D : Nat} (y : (⟨3, ![R, C, D]⟩ : Shape).Idx) : (⟨3, ![R, C, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

/-- THE ROW GATHER READ AT `(r, c, d)`: the table at (row, d), the row being the start index at `[r, c, 0]` read signed
    and clamped into `[0, N − 1]`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (takeRowsDims N D R C wf) x idx y
      = x (ix2 (⟨min (idx (startIdx y)).toInt.toNat (N - 1), by omega⟩ : Fin N) (⟨(y 2).val, (y 2).isLt⟩ : Fin D)) := by
  unfold Host.gather
  refine congrArg x (ix2_ext _ _ _ ?_ ?_)
  · show (takeRowsDims N D R C wf).start y idx 0 + (takeRowsDims N D R C wf).batchCoord y 0
        + (takeRowsDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowsDims N D R C wf).startIndexMap from List.mem_singleton.mpr rfl)]
    have hsi : (takeRowsDims N D R C wf).siIdx y ⟨List.idxOf (0 : Fin 2) (takeRowsDims N D R C wf).startIndexMap,
        List.idxOf_lt_length_iff.2 (List.mem_singleton.mpr rfl)⟩ = startIdx y := by
      funext b; refine Fin.ext ?_
      match b with
      | ⟨0, _⟩ => rfl
      | ⟨1, _⟩ => rfl
      | ⟨2, _⟩ => rfl
    rw [hsi]
    rfl
  · show (takeRowsDims N D R C wf).start y idx 1 + (takeRowsDims N D R C wf).batchCoord y 1
        + (takeRowsDims N D R C wf).offCoord y 1 = (y 2).val
    have hs : (takeRowsDims N D R C wf).start y idx 1 = 0 := by
      unfold GatherDims.start
      rw [dif_neg (show (1 : Fin 2) ∉ ([0] : List (Fin 2)) from by decide)]
    have ho : (takeRowsDims N D R C wf).offCoord y 1 = (y 2).val := by
      unfold GatherDims.offCoord
      rw [dif_pos ((GatherDims.mem_sKept _ _).mpr ⟨(show (1 : Fin 2) ∉ ([0] : List (Fin 2)) from by decide), List.not_mem_nil⟩)]
      rfl
    rw [hs, ho, GatherDims.batchCoord_eq_zero _ _ _ List.not_mem_nil]
    omega

end TakeRows

end Cert.Proof.LibTake
-- ==== Proof.LibIdxPair.lean ====
/-
  The two-column array of start indices that `x[arange(R), t]` builds, read at an index.

  The program makes each of the two index columns by broadcasting a vector `[R]` to a column `[R, 1]`, joins the two
  columns along axis 1 into `[R, 2]`, and before that "wraps" each vector: an entry below zero has the axis's extent added
  (a negative index counts from the axis's end). Read at row `r`: column 0 of the joined array is the first vector's entry `r`, column 1 the
  second's; a broadcast scalar reads its one value; and the wrap leaves a non-negative entry as it is, so the wrapped
  `arange` at `r` is the word of `r`, which read back as a signed integer is `r` (for `r` below `2³¹`).
-/
import Idealize.ShloMosaic.Lib.ValueIdx
import Idealize.ShloMosaic.Lib.Pipeline.Value

noncomputable section

namespace Cert.LibIdxPair

open Idealize.ShloMosaic Idealize.ShloMosaic.ValueIdx

variable {α : Type}

/-- Column 0 of two joined columns is the first column. -/
theorem concat_col0 {R : Nat} (a b : (⟨2, ![R, 1]⟩ : Shape).Idx → α)
    (hc : Shape.Concatenates [(⟨2, ![R, 1]⟩ : Shape), (⟨2, ![R, 1]⟩ : Shape)] (⟨2, ![R, 2]⟩ : Shape) 1) (r : Fin R) :
    concatenate (⟨2, ![R, 2]⟩ : Shape) 1 [⟨(⟨2, ![R, 1]⟩ : Shape), a⟩, ⟨(⟨2, ![R, 1]⟩ : Shape), b⟩] hc (ix2 r (0 : Fin 2))
      = a (ix2 r (0 : Fin 1)) := by
  refine concatenate_pair_apply_left 1 a b hc (ix2 r (0 : Fin 2)) rfl (ix2 r (0 : Fin 1)) ?_
  intro c
  match c with
  | ⟨0, _⟩ => rfl
  | ⟨1, _⟩ => rfl

/-- Column 1 of two joined columns is the second column. -/
theorem concat_col1 {R : Nat} (a b : (⟨2, ![R, 1]⟩ : Shape).Idx → α)
    (hc : Shape.Concatenates [(⟨2, ![R, 1]⟩ : Shape), (⟨2, ![R, 1]⟩ : Shape)] (⟨2, ![R, 2]⟩ : Shape) 1) (r : Fin R) :
    concatenate (⟨2, ![R, 2]⟩ : Shape) 1 [⟨(⟨2, ![R, 1]⟩ : Shape), a⟩, ⟨(⟨2, ![R, 1]⟩ : Shape), b⟩] hc (ix2 r (1 : Fin 2))
      = b (ix2 r (0 : Fin 1)) := by
  refine concatenate_pair_apply_right 1 a b hc (ix2 r (1 : Fin 2)) rfl rfl (ix2 r (0 : Fin 1)) ?_ ?_
  · intro c hne
    match c with
    | ⟨0, _⟩ => rfl
    | ⟨1, _⟩ => exact absurd rfl hne
  · rfl

/-- A vector broadcast to a column reads its entry of the row. -/
theorem bcast_col_apply {R : Nat} (hb : (⟨1, ![R]⟩ : Shape).BroadcastsInDim (⟨2, ![R, 1]⟩ : Shape) ![0])
    (v : (⟨1, ![R]⟩ : Shape).Idx → α) (r : Fin R) :
    broadcastInDim (⟨2, ![R, 1]⟩ : Shape) ![0] hb v (ix2 r (0 : Fin 1)) = v (ix1 r) := by
  refine broadcastInDim_apply _ hb v _ (ix1 r) fun a => ?_
  match a with
  | ⟨0, _⟩ =>
    show r.val = if R = 1 then 0 else r.val
    have := r.isLt
    split <;> omega

/-- A scalar broadcast to a vector reads its one value. -/
theorem bcast_scalar_apply {R : Nat} (hb : (⟨0, ![]⟩ : Shape).BroadcastsInDim (⟨1, ![R]⟩ : Shape) ![])
    (v : (⟨0, ![]⟩ : Shape).Idx → α) (i : (⟨1, ![R]⟩ : Shape).Idx) :
    broadcastInDim (⟨1, ![R]⟩ : Shape) ![] hb v i = v ix0 :=
  broadcastInDim_apply _ hb v i ix0 (fun a => a.elim0)

/-- The word of a natural below `2³¹`, read signed, is that natural. -/
theorem toInt_ofNat_of_lt (r : Nat) (hr : r < 2 ^ 31) : (BitVec.ofNat 32 r).toInt = (r : Int) := by
  rw [BitVec.toInt_eq_toNat_cond, BitVec.toNat_ofNat]
  split <;> omega

/-- … and clamped below at zero and read as a natural it is still that natural. -/
theorem toInt_toNat_ofNat_of_lt (r : Nat) (hr : r < 2 ^ 31) : (BitVec.ofNat 32 r).toInt.toNat = r := by
  rw [toInt_ofNat_of_lt r hr]; rfl

/-- A word that is not negative is not below zero. -/
theorem cmpi_slt_zero_of_nonneg (x : BitVec 32) (h : 0 ≤ x.toInt) : IntOp.cmpi .slt x 0#32 = 0#1 := by
  have e : x.slt 0#32 = false := by
    rw [BitVec.slt, BitVec.toInt_zero]
    exact decide_eq_false (by omega)
  show BitVec.ofBool (x.slt 0#32) = 0#1
  rw [e]; rfl

/-- The wrap of a non-negative index is the index. -/
theorem wrap_of_nonneg (x n : BitVec 32) (h : 0 ≤ x.toInt) :
    Scalar.select (IntOp.cmpi .slt x 0#32) (IntOp.addi x n) x = x := by
  rw [cmpi_slt_zero_of_nonneg x h, select_zero]

/-- The wrapped `arange` at `r` is the word of `r`. -/
theorem wrap_ofNat (r : Nat) (hr : r < 2 ^ 31) (n : BitVec 32) :
    Scalar.select (IntOp.cmpi .slt (BitVec.ofNat 32 r) 0#32) (IntOp.addi (BitVec.ofNat 32 r) n) (BitVec.ofNat 32 r)
      = BitVec.ofNat 32 r :=
  wrap_of_nonneg _ n (by rw [toInt_ofNat_of_lt r hr]; omega)

end Cert.LibIdxPair

end
-- ==== Proof.RefRead.lean ====
/-
  The reference's result read at one index.

  Stage by stage: the positions `0 … 2047` are small non-negative words, so the wrap leaves them alone, the bounds
  test is all ones, and the table lookup at position `s` is the table's own row `s`; the embedding at `(b, s, k)` is
  the input there plus the table at `(s, k)`; a row's mean, its squared deviations' mean and the normalised entry
  are the specification's, over the row `k ↦ emb (b, s, k)`.
-/
import proofs.«134733_g7713761264236_cont_9to1c4b_83_18_alg».proof.Proof.RefRun
import proofs.«134733_g7713761264236_cont_9to1c4b_83_18_alg».proof.Proof.Spec
import proofs.«134733_g7713761264236_cont_9to1c4b_83_18_alg».proof.Proof.LibGatherRows
import proofs.«134733_g7713761264236_cont_9to1c4b_83_18_alg».proof.Proof.LibTake
import proofs.«134733_g7713761264236_cont_9to1c4b_83_18_alg».proof.Proof.LibIdxPair
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx
open scoped BigOperators

/-! ## Broadcasts read at an index -/

section Bcast
variable {α : Type}

/-- Rows `[2048, 1024]` repeated over a new leading axis of 4 read their own entry. -/
theorem bcast_rows_apply (v : S2048x1024.Idx → α) (bb : Fin 4) (s : Fin 2048) (k : Fin 1024) :
    broadcastInDim S4x2048x1024 ![0, 1, 2] bcast_S1x2048x1024_S4x2048x1024_0_1_2
        (broadcastInDim S1x2048x1024 ![1, 2] bcast_S2048x1024_S1x2048x1024_1_2 v) (ix3 bb s k) = v (ix2 s k) := by
  refine (broadcastInDim_apply _ _ _ (ix3 bb s k) (ix3 (0 : Fin 1) s k) (fun a => ?_)).trans ?_
  · match a with
    | ⟨0, _⟩ => rfl
    | ⟨1, _⟩ => rfl
    | ⟨2, _⟩ => rfl
  refine broadcastInDim_apply _ _ _ (ix3 (0 : Fin 1) s k) (ix2 s k) (fun a => ?_)
  match a with
  | ⟨0, _⟩ => rfl
  | ⟨1, _⟩ => rfl

/-- A `[4, 2048]` array given a trailing unit axis reads its own entry. -/
theorem bcast_keep_apply (v : S4x2048.Idx → α) (bb : Fin 4) (s : Fin 2048) :
    broadcastInDim S4x2048x1 ![0, 1] bcast_S4x2048_S4x2048x1_0_1 v (ix3 bb s (0 : Fin 1)) = v (ix2 bb s) := by
  refine broadcastInDim_apply _ _ _ (ix3 bb s (0 : Fin 1)) (ix2 bb s) (fun a => ?_)
  match a with
  | ⟨0, _⟩ => rfl
  | ⟨1, _⟩ => rfl

/-- A column `[4, 2048, 1]` repeated along the last axis reads the column's entry of the row. -/
theorem bcast_col_apply (v : S4x2048x1.Idx → α) (bb : Fin 4) (s : Fin 2048) (k : Fin 1024) :
    broadcastInDim S4x2048x1024 ![0, 1, 2] bcast_S4x2048x1_S4x2048x1024_0_1_2 v (ix3 bb s k)
      = v (ix3 bb s (0 : Fin 1)) := by
  refine broadcastInDim_apply _ _ _ (ix3 bb s k) (ix3 bb s (0 : Fin 1)) (fun a => ?_)
  match a with
  | ⟨0, _⟩ => rfl
  | ⟨1, _⟩ => rfl
  | ⟨2, _⟩ => rfl

end Bcast

/-- A vector along the last axis, repeated over the first two, reads its entry of the last coordinate. -/
theorem alongLast_apply {F : FTy → Type} [FloatOps F] (v : FVec F S1024 .f32) (bb : Fin 4) (s : Fin 2048) (j : Fin 1024) :
    alongLast v (ix3 bb s j) = v (ix1 j) := by
  unfold alongLast
  refine (broadcastInDim_apply _ _ _ (ix3 bb s j) (ix3 (0 : Fin 1) (0 : Fin 1) j) (fun a => ?_)).trans ?_
  · match a with
    | ⟨0, _⟩ => rfl
    | ⟨1, _⟩ => rfl
    | ⟨2, _⟩ => rfl
  refine broadcastInDim_apply _ _ _ (ix3 (0 : Fin 1) (0 : Fin 1) j) (ix1 j) (fun a => ?_)
  match a with
  | ⟨0, _⟩ => rfl

/-! ## The table lookup -/

/-- Position `s` is the word of `s`. -/
theorem positions_apply (s : Fin 2048) : positions (ix1 s) = BitVec.ofNat 32 s.val := rfl

/-- The wrap leaves it: it is not negative. -/
theorem wrapped_apply (s : Fin 2048) : wrapped (ix1 s) = BitVec.ofNat 32 s.val := by
  show Scalar.select (IntOp.cmpi .slt (BitVec.ofNat 32 s.val) 0#32) (IntOp.addi (BitVec.ofNat 32 s.val) 2048#32)
      (BitVec.ofNat 32 s.val) = BitVec.ofNat 32 s.val
  exact Cert.LibIdxPair.wrap_ofNat s.val (by have := s.isLt; omega) 2048#32

/-- The start index of position `s` is the word of `s`. -/
theorem idxCol_apply (s : Fin 2048) : idxCol (ix2 s (0 : Fin 1)) = BitVec.ofNat 32 s.val :=
  (Cert.LibIdxPair.bcast_col_apply bcast_S2048_S2048x1_0 wrapped s).trans (wrapped_apply s)

/-- Every start index is inside the table: `0 ≤ s ≤ 2047`. -/
theorem inBounds_apply (i : S2048x1.Idx) : inBounds i = 1#1 := by
  obtain ⟨s, z, rfl⟩ : ∃ (s : Fin 2048) (z : Fin 1), i = ix2 s z := ⟨i 0, i 1, eq_ix2 i⟩
  obtain rfl : z = 0 := Subsingleton.elim _ _
  show IntOp.andi (IntOp.cmpi .sge (idxCol (ix2 s (0 : Fin 1))) 0#32)
      (IntOp.cmpi .sle (idxCol (ix2 s (0 : Fin 1))) (BitVec.ofNat 32 2047)) = 1#1
  rw [idxCol_apply, Cert.Proof.LibTake.cmpi_sge_zero s.val (by have := s.isLt; omega),
    Cert.Proof.LibTake.cmpi_sle_bound s.val 2047 (by omega) (by have := s.isLt; omega)]
  decide

/-- So the conjunction over the index vector is one at every position. -/
theorem maskRow_apply (j : S2048.Idx) : maskRow j = 1#1 :=
  Cert.Proof.LibTake.reduce_andi_ones inBounds (constantI S_ 1 1#1) reducesTo_S2048x1_S2048_d1 h_S_ inBounds_apply rfl j

section Lookup
variable {F : FTy → Type} [FloatOps F]

/-- The gather reads the table's row `s` at position `s`. -/
theorem gathered_apply (pos : FVec F S2048x1024 .f32) (s : Fin 2048) (k : Fin 1024) :
    gathered pos (ix2 s k) = pos (ix2 s k) := by
  have hrow : GatherRows.rowOf (N := 2048) (by omega) idxCol s = s := by
    refine Fin.ext ?_
    show min (idxCol (ix2 s (0 : Fin 1))).toInt.toNat (2048 - 1) = s.val
    rw [idxCol_apply, Cert.LibIdxPair.toInt_toNat_ofNat_of_lt s.val (by have := s.isLt; omega)]
    exact Nat.min_eq_left (by have := s.isLt; omega)
  refine (GatherRows.gather_rows_apply (N := 2048) (D := 1024) (E := 2048) (by omega)
    gather_S2048x1024_S2048x1_S2048x1024_1_0_n_n_0_1_11024_wf pos idxCol s k).trans ?_
  rw [hrow]

/-- The looked-up row `s` is the table's row `s`. -/
theorem posRows_apply (pos : FVec F S2048x1024 .f32) (s : Fin 2048) (k : Fin 1024) :
    posRows pos (ix2 s k) = pos (ix2 s k) := by
  show Scalar.select (maskRow _) (gathered pos (ix2 s k)) _ = _
  rw [maskRow_apply, select_one, gathered_apply]

end Lookup

/-! ## The embedding and the normalisation, at the extended reals -/

/-- The embedding at `(b, s, k)`: the input there plus the table at `(s, k)`. -/
theorem emb_apply (x : FVec Ideal S4x2048x1024 .f32) (pos : FVec Ideal S2048x1024 .f32)
    (bb : Fin 4) (s : Fin 2048) (k : Fin 1024) :
    emb x pos (ix3 bb s k) = x (ix3 bb s k) + pos (ix2 s k) := by
  show x (ix3 bb s k) + broadcastInDim S4x2048x1024 ![0, 1, 2] bcast_S1x2048x1024_S4x2048x1024_0_1_2
      (broadcastInDim S1x2048x1024 ![1, 2] bcast_S2048x1024_S1x2048x1024_1_2 (posRows pos)) (ix3 bb s k) = _
  rw [bcast_rows_apply, posRows_apply]

/-- A row sum: the initial value plus the sum of the row's 1024 entries. -/
theorem rowSum_apply (e : FVec Ideal S4x2048x1024 .f32) (bb : Fin 4) (s : Fin 2048) :
    Host.reduceAdd e (constant (F := Ideal) S_ .f32 0x00000000#32) reducesTo_S4x2048x1024_S4x2048_d2 h_S_ (ix2 bb s)
      = Ideal.ofBits .f32 0x00000000#32 + ∑ k : Fin 1024, e (ix3 bb s k) := by
  have h : S4x2048x1024.Reduces [2] S4x2048 :=
    ⟨reducesTo_S4x2048x1024_S4x2048_d2.1, Nat.two_pos, reducesTo_S4x2048x1024_S4x2048_d2.2⟩
  show Ideal.hostReduceAdd reducesTo_S4x2048x1024_S4x2048_d2 e (Ideal.ofBits .f32 0x00000000#32) (ix2 bb s) = _
  rw [Ideal.hostReduceAdd_single reducesTo_S4x2048x1024_S4x2048_d2 h]
  refine congrArg (_ + ·) (Finset.sum_congr rfl fun k _ => ?_)
  refine congrArg e (funext fun a => Fin.ext ?_)
  match a with
  | ⟨0, _⟩ => rfl
  | ⟨1, _⟩ => rfl
  | ⟨2, _⟩ => rfl

/-- The mean column at row `(b, s)` is the specification's mean of the row. -/
theorem meanCol_apply (e : FVec Ideal S4x2048x1024 .f32) (bb : Fin 4) (s : Fin 2048) :
    meanCol e (ix3 bb s (0 : Fin 1)) = Cert.LN.rMean (fun k => e (ix3 bb s k)) := by
  show Ideal.div (broadcastInDim S4x2048x1 ![0, 1] bcast_S4x2048_S4x2048x1_0_1
      (Host.reduceAdd e (constant (F := Ideal) S_ .f32 0x00000000#32) reducesTo_S4x2048x1024_S4x2048_d2 h_S_)
      (ix3 bb s (0 : Fin 1))) (Ideal.ofBits .f32 0x44800000#32) = _
  rw [bcast_keep_apply, rowSum_apply]
  rfl

/-- The deviation at `(b, s, k)`. -/
theorem centered_apply (e : FVec Ideal S4x2048x1024 .f32) (bb : Fin 4) (s : Fin 2048) (k : Fin 1024) :
    centered e (ix3 bb s k) = e (ix3 bb s k) - Cert.LN.rMean (fun k => e (ix3 bb s k)) := by
  show e (ix3 bb s k) - broadcastInDim S4x2048x1024 ![0, 1, 2] bcast_S4x2048x1_S4x2048x1024_0_1_2 (meanCol e)
      (ix3 bb s k) = _
  rw [bcast_col_apply, meanCol_apply]

/-- The variance column at row `(b, s)`: the mean of the row's squared deviations. -/
theorem varCol_apply (e : FVec Ideal S4x2048x1024 .f32) (bb : Fin 4) (s : Fin 2048) :
    varCol e (ix3 bb s (0 : Fin 1))
      = Ideal.div (Ideal.ofBits .f32 0x00000000#32
          + ∑ k : Fin 1024, (e (ix3 bb s k) - Cert.LN.rMean (fun k => e (ix3 bb s k)))
              * (e (ix3 bb s k) - Cert.LN.rMean (fun k => e (ix3 bb s k)))) Cert.LN.cLen := by
  show Ideal.div (broadcastInDim S4x2048x1 ![0, 1] bcast_S4x2048_S4x2048x1_0_1
      (Host.reduceAdd (mulf (centered e) (centered e)) (constant (F := Ideal) S_ .f32 0x00000000#32)
        reducesTo_S4x2048x1024_S4x2048_d2 h_S_) (ix3 bb s (0 : Fin 1))) (Ideal.ofBits .f32 0x44800000#32) = _
  rw [bcast_keep_apply, rowSum_apply]
  refine congrArg (fun t => Ideal.div (Ideal.ofBits .f32 0x00000000#32 + t) Cert.LN.cLen)
    (Finset.sum_congr rfl fun k _ => ?_)
  show centered e (ix3 bb s k) * centered e (ix3 bb s k) = _
  rw [centered_apply]

/-- The normalised entry at `(b, s, j)`, times a gain plus an offset, is the specification's row. -/
theorem normed_row (e : FVec Ideal S4x2048x1024 .f32) (bb : Fin 4) (s : Fin 2048) (j : Fin 1024) (gj bj : EReal) :
    normed e (ix3 bb s j) * gj + bj = Cert.LN.rRow (fun k => e (ix3 bb s k)) gj bj j := by
  have hn : normed e (ix3 bb s j)
      = Ideal.div (centered e (ix3 bb s j)) (Ideal.sqrt (varCol e (ix3 bb s (0 : Fin 1)) + Cert.LN.cEps)) := by
    show Ideal.div (centered e (ix3 bb s j))
        (broadcastInDim S4x2048x1024 ![0, 1, 2] bcast_S4x2048x1_S4x2048x1024_0_1_2 (stdCol e) (ix3 bb s j)) = _
    rw [bcast_col_apply]
    rfl
  rw [hn, centered_apply, varCol_apply]
  rfl

/-! ## The result -/

/-- THE RESULT AT `(b, s, j)`: the specification's row over the embedding's row, with entry `j` of the gain and of
    the offset. -/
theorem refOut_apply (x : FVec Ideal S4x2048x1024 .f32) (pos : FVec Ideal S2048x1024 .f32) (g b : FVec Ideal S1024 .f32)
    (bb : Fin 4) (s : Fin 2048) (j : Fin 1024) :
    RefRun.refOut (F := Ideal) x pos g b (ValueIdx.ix3 bb s j)
      = Cert.LN.rRow (fun k => x (ValueIdx.ix3 bb s k) + pos (ValueIdx.ix2 s k)) (g (ValueIdx.ix1 j)) (b (ValueIdx.ix1 j)) j := by
  have he : (fun k : Fin 1024 => emb x pos (ix3 bb s k)) = fun k => x (ix3 bb s k) + pos (ix2 s k) :=
    funext fun k => emb_apply x pos bb s k
  show normed (emb x pos) (ix3 bb s j) * alongLast g (ix3 bb s j) + alongLast b (ix3 bb s j) = _
  rw [alongLast_apply, alongLast_apply, normed_row, he]

end Cert.ReferenceIdeal.RefRead

end
-- ==== Proof.LibERealSum.lean ====
/-
  The embedding of the reals into the extended reals commutes with finite sums.

  It commutes with the sum of two reals, and the empty sum is `0` on both sides; a finite sum is built from those.
  With it a sum of extended reals whose terms are all real can be computed in `ℝ`, where multiplication distributes.
-/
import Idealize.ShloMosaic.PureOps.Ideal

namespace Cert.LibERealSum

/-- `((∑ i ∈ s, f i : ℝ) : EReal) = ∑ i ∈ s, (f i : EReal)`, by induction on the finite set. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibERealSum
-- ==== Proof.Law.lean ====
/-
  The two row formulas agree on real rows.

  For a row of reals `a`, with `μ = (∑ a) / 1024`: the mean of the squares minus `μ²` is the mean of the squared
  deviations from `μ` (expand the square; the cross term is `-2 μ ∑ a = -2 · 1024 μ²`), so both programs
  normalise by the same positive number `sqrt (v + ε)`, one by a product with its inverse, one by a quotient; and
  multiplying by `2⁻¹⁰` is dividing by `1024`. Every intermediate value is a real, so the extended reals'
  corner conventions never come into play.
-/
import proofs.«134733_g7713761264236_cont_9to1c4b_83_18_alg».proof.Proof.Spec
import proofs.«134733_g7713761264236_cont_9to1c4b_83_18_alg».proof.Proof.LibERealSum
import Idealize.ShloMosaic.PureOps.Ideal.Laws

noncomputable section

namespace Cert.LN

open Idealize.ShloMosaic Cert.LibERealSum

/-! ## The three patterns -/

theorem cInv_eq : cInv = ((1 / 1024 : ℝ) : EReal) := by
  simp [cInv, Ideal.ofBits, Ideal.ieee, -EReal.coe_mul]; norm_num

theorem cLen_eq : cLen = ((1024 : ℝ) : EReal) := by
  simp [cLen, Ideal.ofBits, Ideal.ieee, -EReal.coe_mul]; norm_num

/-- The shared `ε` is a positive real. -/
theorem cEps_eq : ∃ ε : ℝ, 0 < ε ∧ cEps = (ε : EReal) := by
  refine ⟨10995116 * (2 : ℝ) ^ (-40 : ℤ), by positivity, ?_⟩
  simp [cEps, Ideal.ofBits, Ideal.ieee, -EReal.coe_mul]

/-! ## The row over the reals -/

/-- The mean of a real row. -/
def muR (a : Fin 1024 → ℝ) : ℝ := (∑ k, a k) * (1 / 1024)

/-- The variance of a real row, as the mean of the squares minus the square of the mean. -/
def varR (a : Fin 1024 → ℝ) : ℝ := (∑ k, a k * a k) * (1 / 1024) - muR a * muR a

/-- It is the mean of the squared deviations. -/
theorem varR_eq (a : Fin 1024 → ℝ) : varR a = (∑ k, (a k - muR a) * (a k - muR a)) * (1 / 1024) := by
  have h : ∑ k : Fin 1024, (a k - muR a) * (a k - muR a)
      = (∑ k, a k * a k) - 2 * muR a * (∑ k, a k) + 1024 * (muR a * muR a) := by
    have e : ∀ k, (a k - muR a) * (a k - muR a) = a k * a k - 2 * muR a * a k + muR a * muR a := fun k => by ring
    simp only [e, Finset.sum_add_distrib, Finset.sum_sub_distrib, ← Finset.mul_sum, Finset.sum_const, Finset.card_univ,
      Fintype.card_fin, nsmul_eq_mul]
    push_cast; ring
  rw [h]; unfold varR muR; ring

theorem varR_nonneg (a : Fin 1024 → ℝ) : 0 ≤ varR a := by
  rw [varR_eq]
  exact mul_nonneg (Finset.sum_nonneg fun k _ => mul_self_nonneg _) (by norm_num)

/-- The normalised row over the reals. -/
def outR (a : Fin 1024 → ℝ) (γ β ε : ℝ) (j : Fin 1024) : ℝ :=
  (a j - muR a) * (Real.sqrt (varR a + ε))⁻¹ * γ + β

/-! ## Both formulas on a real row -/

theorem sum_coe (a : Fin 1024 → ℝ) : (∑ k, ((a k : ℝ) : EReal)) = ((∑ k, a k : ℝ) : EReal) :=
  (coe_sum Finset.univ a).symm

theorem kRow_coe (a : Fin 1024 → ℝ) (γ β ε : ℝ) (hε : 0 < ε) (hc : cEps = (ε : EReal)) (j : Fin 1024) :
    kRow (fun k => (a k : EReal)) (γ : EReal) (β : EReal) j = ((outR a γ β ε j : ℝ) : EReal) := by
  have hQ : (∑ k, ((a k : ℝ) : EReal) * ((a k : ℝ) : EReal)) = ((∑ k, a k * a k : ℝ) : EReal) := by
    rw [coe_sum]; exact Finset.sum_congr rfl fun k _ => (EReal.coe_mul _ _).symm
  have hr : 0 < varR a + ε := add_pos_of_nonneg_of_pos (varR_nonneg a) hε
  unfold kRow
  rw [sum_coe, hQ, cInv_eq, hc]
  simp only [← EReal.coe_mul, ← EReal.coe_sub, ← EReal.coe_add]
  have hv : (∑ k, a k * a k) * (1 / 1024) - (∑ k, a k) * (1 / 1024) * ((∑ k, a k) * (1 / 1024)) + ε = varR a + ε := rfl
  rw [hv, Ideal.rsqrt_coe, if_neg (not_lt.mpr hr.le), if_neg hr.ne']
  simp only [← EReal.coe_mul, ← EReal.coe_add]
  rfl

theorem rRow_coe (a : Fin 1024 → ℝ) (γ β ε : ℝ) (hε : 0 < ε) (hc : cEps = (ε : EReal)) (j : Fin 1024) :
    rRow (fun k => (a k : EReal)) (γ : EReal) (β : EReal) j = ((outR a γ β ε j : ℝ) : EReal) := by
  have hr : 0 < varR a + ε := add_pos_of_nonneg_of_pos (varR_nonneg a) hε
  have hm : rMean (fun k => (a k : EReal)) = ((muR a : ℝ) : EReal) := by
    unfold rMean
    rw [Ideal.ofBits_zero_f32, zero_add, sum_coe, cLen_eq, Ideal.div_coe (by norm_num : (1024 : ℝ) ≠ 0), ← EReal.coe_mul]
    rfl
  have hD : (∑ k, (((a k : ℝ) : EReal) - ((muR a : ℝ) : EReal)) * (((a k : ℝ) : EReal) - ((muR a : ℝ) : EReal)))
      = ((∑ k, (a k - muR a) * (a k - muR a) : ℝ) : EReal) := by
    rw [coe_sum]; exact Finset.sum_congr rfl fun k _ => by rw [← EReal.coe_sub, ← EReal.coe_mul]
  have hs : Real.sqrt (varR a + ε) ≠ 0 := (Real.sqrt_pos.mpr hr).ne'
  unfold rRow
  rw [hm, hD, Ideal.ofBits_zero_f32, zero_add, cLen_eq, Ideal.div_coe (by norm_num : (1024 : ℝ) ≠ 0), ← EReal.coe_mul,
    ← varR_eq, hc, ← EReal.coe_add, Ideal.sqrt_coe, if_neg (not_lt.mpr hr.le), Ideal.div_coe hs]
  simp only [← EReal.coe_mul, ← EReal.coe_sub, ← EReal.coe_add]
  rw [one_div]
  rfl

/-- On a real row, with a real gain and offset, the reference's formula is the kernel's. -/
theorem rRow_eq_kRow (a : Fin 1024 → ℝ) (γ β : ℝ) (j : Fin 1024) :
    rRow (fun k => (a k : EReal)) (γ : EReal) (β : EReal) j = kRow (fun k => (a k : EReal)) (γ : EReal) (β : EReal) j := by
  obtain ⟨ε, hε, hc⟩ := cEps_eq
  rw [rRow_coe a γ β ε hε hc, kRow_coe a γ β ε hε hc]

end Cert.LN

end
-- ==== Proof.Bridge.lean ====
/-
  The reference's result is the kernel's whole-array function, on real inputs.

  Index by index both are a layer normalisation of the same embedding row `x (b, s, ·) + pos (s, ·)` with the same
  gain and offset: the reference's formula on one side, the kernel's on the other, equal on real rows.
-/
import proofs.«134733_g7713761264236_cont_9to1c4b_83_18_alg».proof.Proof.KValue
import proofs.«134733_g7713761264236_cont_9to1c4b_83_18_alg».proof.Proof.RefRead
import proofs.«134733_g7713761264236_cont_9to1c4b_83_18_alg».proof.Proof.Law

noncomputable section

namespace Cert.Proof.Bridge

open Idealize.ShloMosaic Idealize.ShloMosaic.ValueIdx

theorem refOut_eq_G (x : FVec Ideal Cert.ReferenceIdeal.S4x2048x1024 .f32) (pos : FVec Ideal Cert.ReferenceIdeal.S2048x1024 .f32)
    (g b : FVec Ideal Cert.ReferenceIdeal.S1024 .f32)
    (hx : ∀ i, ∃ r : ℝ, x i = (r : EReal)) (hp : ∀ i, ∃ r : ℝ, pos i = (r : EReal))
    (hg : ∀ i, ∃ r : ℝ, g i = (r : EReal)) (hb : ∀ i, ∃ r : ℝ, b i = (r : EReal)) :
    Cert.ReferenceIdeal.RefRun.refOut (F := Ideal) x pos g b = Cert.KernelIdeal.LNValue.G x pos g b := by
  funext i
  obtain ⟨bb, s, j, rfl⟩ : ∃ (bb : Fin 4) (s : Fin 2048) (j : Fin 1024), i = ix3 bb s j := ⟨i 0, i 1, i 2, eq_ix3 i⟩
  rw [Cert.ReferenceIdeal.RefRead.refOut_apply]
  show Cert.LN.rRow (fun k => x (ix3 bb s k) + pos (ix2 s k)) (g (ix1 j)) (b (ix1 j)) j
    = Cert.LN.kRow (fun k => x (ix3 bb s k) + pos (ix2 s k)) (g (ix1 j)) (b (ix1 j)) j
  choose xr hxr using hx
  choose pr hpr using hp
  choose gr hgr using hg
  choose br hbr using hb
  have e : (fun k : Fin 1024 => x (ix3 bb s k) + pos (ix2 s k))
      = fun k : Fin 1024 => ((xr (ix3 bb s k) + pr (ix2 s k) : ℝ) : EReal) :=
    funext fun k => by rw [hxr, hpr, EReal.coe_add]
  rw [e, hgr, hbr]
  exact Cert.LN.rRow_eq_kRow _ _ _ j

end Cert.Proof.Bridge

end
-- ==== Proof.lean ====
/-
  Layer normalisation of `x + pos[None]` over the last axis: a kernel over four blocks of 512 sequence rows against
  jnp, equal over the extended reals on finite inputs.

  * The three frames: the kernel's two are its generated frame; the reference has no kernel, and its frame is its run
    with the result dropped.
  * The idealization rewrote nothing.
  * The values. The kernel's result array ends holding, at `(b, s, j)`, `(e j - μ) · rsqrt (E[e²] - μ² + ε) · γ j + β j`
    for the row `e = x (b, s, ·) + pos (s, ·)`, with `μ = (∑ e) · 2⁻¹⁰`; the reference's, whose gather of rows
    `0 … 2047` of the table in order is the table, `(e j - μ) / sqrt (E[(e - μ)²] + ε) · γ j + β j` with
    `μ = (∑ e) / 1024`. On real rows these are one number: `E[e²] - μ² = E[(e - μ)²]`, the variance is not negative
    and `ε` is positive, so the square root is a positive real and dividing by it is multiplying by its inverse.
-/
import proofs.«134733_g7713761264236_cont_9to1c4b_83_18_alg».proof.Defs
import proofs.«134733_g7713761264236_cont_9to1c4b_83_18_alg».proof.Proof.Gen.Kernel
import proofs.«134733_g7713761264236_cont_9to1c4b_83_18_alg».proof.Proof.Gen.Kernel.Skeleton
import proofs.«134733_g7713761264236_cont_9to1c4b_83_18_alg».proof.Proof.Gen.Kernel.Launch
import proofs.«134733_g7713761264236_cont_9to1c4b_83_18_alg».proof.Proof.Gen.Kernel.Points
import proofs.«134733_g7713761264236_cont_9to1c4b_83_18_alg».proof.Proof.Gen.Kernel.Frame
import proofs.«134733_g7713761264236_cont_9to1c4b_83_18_alg».proof.Proof.Gen.KernelIdeal
import proofs.«134733_g7713761264236_cont_9to1c4b_83_18_alg».proof.Proof.Gen.KernelIdeal.Skeleton
import proofs.«134733_g7713761264236_cont_9to1c4b_83_18_alg».proof.Proof.Gen.KernelIdeal.Launch
import proofs.«134733_g7713761264236_cont_9to1c4b_83_18_alg».proof.Proof.Gen.KernelIdeal.Points
import proofs.«134733_g7713761264236_cont_9to1c4b_83_18_alg».proof.Proof.Gen.KernelIdeal.Frame
import proofs.«134733_g7713761264236_cont_9to1c4b_83_18_alg».proof.Proof.Gen.KernelIdeal.Value
import proofs.«134733_g7713761264236_cont_9to1c4b_83_18_alg».proof.Proof.Gen.ReferenceIdeal
import proofs.«134733_g7713761264236_cont_9to1c4b_83_18_alg».proof.Proof.Gen.Pre_finite_inputs
import proofs.«134733_g7713761264236_cont_9to1c4b_83_18_alg».proof.Proof.Finite
import proofs.«134733_g7713761264236_cont_9to1c4b_83_18_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the arguments both programs end, the kernel's result at `G` of the arguments, the
    reference's at its own term of them, which on finite arguments is `G` of them. -/
theorem algebraic : Cert.algebraic_KernelIdeal_ReferenceIdeal := by
  intro m ρ m' ρ' hpre hagree
  refine ⟨fun c => Cert.KernelIdeal.LNValue.Gm m c, Cert.KernelIdeal.LNValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  obtain ⟨hx, hp, hg, hb⟩ := Cert.Pre_finite_inputs.Finite.real_of_pre _ _ _ _ (hpre c)
  exact Cert.Proof.Bridge.refOut_eq_G _ _ _ _ hx hp hg hb

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
